-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S2000x64 : Shape := ⟨2, ![2000, 64]⟩
abbrev S1650000x64 : Shape := ⟨2, ![1650000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S1650000x1, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x64, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S1650000x1, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x64, .f32⟩
  | .hbm, ⟨76, _⟩ => ⟨S1650000x64, .f32⟩
  | .hbm, ⟨77, _⟩ => ⟨S1650000x64, .f32⟩
  | .hbm, ⟨78, _⟩ => ⟨S_, .f32⟩
  | .hbm, ⟨79, _⟩ => ⟨S50000x64, .f32⟩
  | .hbm, ⟨80, _⟩ => ⟨S1650000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x64_S64x64_S2000x64_1_0_0_1_n_n_wf : DotDims.WF S2000x64 S64x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S50000x64, .f32⟩
  | 7 => ⟨S50000, .i32⟩
  | 8 => ⟨S1x1600000, .i32⟩
  | 9 => ⟨S1600000, .i32⟩
  | 10 => ⟨S1650000, .i32⟩
  | 11 => ⟨S1x1600000, .i32⟩
  | 12 => ⟨S1600000, .i32⟩
  | 13 => ⟨S1650000, .i32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S1650000x1, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000x64, .f32⟩
  | 57 => ⟨S1650000x64, .f32⟩
  | 58 => ⟨S1650000x64, .f32⟩
  | 59 => ⟨S_, .f32⟩
  | 60 => ⟨S50000x64, .f32⟩
  | 61 => ⟨S1650000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x64, .f32⟩
  | 70 => ⟨S50000, .i32⟩
  | 71 => ⟨S1x1600000, .i32⟩
  | 72 => ⟨S1600000, .i32⟩
  | 73 => ⟨S1650000, .i32⟩
  | 74 => ⟨S1x1600000, .i32⟩
  | 75 => ⟨S1600000, .i32⟩
  | 76 => ⟨S1650000, .i32⟩
  | 77 => ⟨S_, .f32⟩
  | 78 => ⟨S1650000, .f32⟩
  | 79 => ⟨S_, .f32⟩
  | 80 => ⟨S50000, .f32⟩
  | 81 => ⟨S1650000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000, .f32⟩
  | 109 => ⟨S1650000, .f32⟩
  | 110 => ⟨S1650000x1, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x64, .f32⟩
  | 120 => ⟨S1650000x64, .f32⟩
  | 121 => ⟨S1650000x64, .f32⟩
  | 122 => ⟨S_, .f32⟩
  | 123 => ⟨S50000x64, .f32⟩
  | 124 => ⟨S1650000x1, .i32⟩
  | 125 => ⟨S50000x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The kernel's run with its result named.  The program is four pipelined regions among stretches of host
  operations.  Run from any memory with zero counters, every weakly fair execution terminates without a fault;
  in the final state every unscoped buffer of a TensorCore holds what the fold of the segments leaves in it —
  a stretch of host operations applies them in order, a region leaves each of its arrays at what its write-backs
  leave and every other buffer as it found it.  Read at the result buffer this names the result: the last
  region's output array after its last grid point.  Read at an argument it gives back the launch contents, since no
  host operation and no region writes an argument.
-/
import proofs.«134719_j22995254903253_1_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Gcn

end
-- ==== Proof.MatmulBlock.lean ====
/-
  The two linear bodies at an index.  Each of the kernel's two linear regions loads a block of 2000 rows of the
  node features and the whole 64-by-64 weight matrix, rounds both to bf16 — the identity on the extended reals —
  and multiplies them on the matrix unit into a zero accumulator.  Read at row `r` and column `q` of the block,
  the stored value is the plain sum over the 64 contracted coordinates `k` of `x (r, k) * w (k, q)`: the zero
  accumulator contributes nothing, and the contraction index of the product is its one coordinate.
-/
import proofs.«134719_j22995254903253_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gcn

open Idealize.ShloMosaic Idealize.ShloMosaic.ValueIdx Cert.KernelIdeal Cert.KernelIdeal.Gen
open scoped BigOperators

/-- The product's dimension numbers: rows of the left operand against columns of the right, one contracted axis. -/
local notation "dotBlk" => dot_S2000x64_S64x64_S2000x64_1_0_0_1_n_n

/-- The left operand of the product is read at the output's row and the contracted coordinate. -/
theorem lhs_row (j : S2000x64.Idx) (q : (dotBlk).contr.Idx) : ((dotBlk).lhsIdx j q 0).val = (j 0).val := by
  unfold DotDims.lhsIdx
  rw [dif_neg (show ¬(0 : Fin S2000x64.rank) ∈ (dotBlk).lhsBatch by decide),
    dif_pos (show (0 : Fin S2000x64.rank) ∈ (dotBlk).lhsNonContracting by decide)]
  rfl

theorem lhs_contr (j : S2000x64.Idx) (q : (dotBlk).contr.Idx) : ((dotBlk).lhsIdx j q 1).val = (q ⟨0, by decide⟩).val :=
  (dotBlk).lhsIdx_val_of_single rfl j q

/-- The right operand is read at the contracted coordinate and the output's column. -/
theorem rhs_contr (j : S2000x64.Idx) (q : (dotBlk).contr.Idx) : ((dotBlk).rhsIdx j q 0).val = (q ⟨0, by decide⟩).val :=
  (dotBlk).rhsIdx_val_of_single rfl j q

theorem rhs_col (j : S2000x64.Idx) (q : (dotBlk).contr.Idx) : ((dotBlk).rhsIdx j q 1).val = (j 1).val := by
  unfold DotDims.rhsIdx
  rw [dif_neg (show ¬(1 : Fin S64x64.rank) ∈ (dotBlk).rhsBatch by decide),
    dif_pos (show (1 : Fin S64x64.rank) ∈ (dotBlk).rhsNonContracting by decide)]
  rfl

/-- A product of a block of rows with the weight matrix into the zero accumulator, at `(r, q)`: the sum over the
    contracted coordinate. -/
theorem matmul_zero_at (x : FVec Ideal S2000x64 .bf16) (w : FVec Ideal S64x64 .bf16) (r : Fin 2000) (q : Fin 64) :
    matmul dotBlk none x w (constant (F := Ideal) S2000x64 .f32 0x00000000#32) (ix2 r q)
      = ∑ k : Fin 64, x (ix2 r k) * w (ix2 k q) := by
  simp only [matmul]
  rw [Ideal.matmul_constant_zero_apply, ← Equiv.sum_comp (contrEquiv1 dotBlk 64 rfl rfl).symm]
  refine Finset.sum_congr rfl fun k _ => ?_
  have hk := contrEquiv1_symm_val dotBlk 64 rfl rfl k
  have el : (dotBlk).lhsIdx (ix2 r q) ((contrEquiv1 dotBlk 64 rfl rfl).symm k) = ix2 r k := funext fun a => Fin.ext (by
    match a with
    | ⟨0, _⟩ => exact lhs_row _ _
    | ⟨1, _⟩ => exact (lhs_contr _ _).trans hk)
  have er : (dotBlk).rhsIdx (ix2 r q) ((contrEquiv1 dotBlk 64 rfl rfl).symm k) = ix2 k q := funext fun a => Fin.ext (by
    match a with
    | ⟨0, _⟩ => exact (rhs_contr _ _).trans hk
    | ⟨1, _⟩ => exact rhs_col _ _)
  rw [el, er]

/-- The first linear body: rounding to bf16 is the identity, so the stored value at `(r, q)` is
    `∑ k, x (r, k) * w (k, q)`. -/
theorem linear1_at (x : Vec Ideal S2000x64 .f32) (w : Vec Ideal S64x64 .f32) (r : Fin 2000) (q : Fin 64) :
    k0_pay1 (F := Ideal) x w (ix2 r q) = ∑ k : Fin 64, x (ix2 r k) * w (ix2 k q) := by
  unfold k0_pay1
  exact matmul_zero_at _ _ r q

/-- The second linear body: the same after a shape cast of the block to its own shape. -/
theorem linear2_at (x : Vec Ideal S2000x64 .f32) (w : Vec Ideal S64x64 .f32) (r : Fin 2000) (q : Fin 64) :
    k2_pay1 (F := Ideal) x w (ix2 r q) = ∑ k : Fin 64, x (ix2 r k) * w (ix2 k q) := by
  unfold k2_pay1
  rw [shapeCast_self]
  exact matmul_zero_at _ _ r q

end Cert.KernelIdeal.Gcn

end
-- ==== Proof.LinearRegion1.lean ====
/-
  The first linear region, as a whole array.  The region runs the linear body at 25 grid points; point `t` loads
  rows 2000·t … 2000·t + 1999 of the node features and the whole weight matrix, and writes the same rows of the
  output back.  Block `t` of the output is therefore block `t` of the full product `features · weights`: row
  2000·t + r of the product depends only on row 2000·t + r of the features.  The 25 blocks tile the 50000 rows, so
  after the last point the output array is the full product — the function the reference computes with one
  `dot_general`.  Stated for any contents `V` the region is entered with.
-/
import proofs.«134719_j22995254903253_1_alg».proof.Proof.Gen.KernelIdeal.Frame
import proofs.«134719_j22995254903253_1_alg».proof.Proof.RefRead
import proofs.«134719_j22995254903253_1_alg».proof.Proof.MatmulBlock
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- A block that starts at the origin. -/
theorem origin_lin1 : (![0, 0] : Fin 2 → Nat) = fun _ => 0 := funext fun a => by fin_cases a <;> rfl

/-- The index maps over the 25 grid points: point `t` takes block `t` of feature rows and of output rows, and the
    one block of the weights. -/
theorem blocks_lin1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of output rows is some point's. -/
theorem onto_lin1 : ∀ p : Fin 25, ∃ t : Fin cfg0.N, win0_2.index t = ![p.val, 0] :=
  (by decide +kernel : ∀ p : Fin 25, ∃ t : Fin grid0.N, win0_2.index t = ![p.val, 0])

/-- What point `t` writes back is block `t` of the full product of the arrays the region is entered with. -/
theorem flushed_lin1 (c : Dev nD) (t : Fin cfg0.N) :
    (dat0 V c).flushed 2 t = ((cfg0.win 2).blk t).view.read (Elt Ideal)
      (Cert.ReferenceIdeal.ReadP.val_main_v0 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero origin_lin1]
  simp only [View.ld_unit_zero (S := S2000x64) origin_lin1, View.ld_unit_zero (S := S64x64) origin_lin1]
  obtain ⟨e00, e01, e10, e11, e20, e21⟩ := blocks_lin1 t
  funext j
  obtain ⟨r, q, rfl⟩ : ∃ (r : Fin 2000) (q : Fin 64), j = ix2 r q := ⟨j 0, j 1, eq_ix2 j⟩
  show k0_pay1 (iblk0 V c 0 t) (iblk0 V c 1 t) (ix2 r q)
    = Cert.ReferenceIdeal.ReadP.val_main_v0 (F := Ideal) (V c (Pipeline.arrRef spec0 0)) (V c (Pipeline.arrRef spec0 1))
        (((cfg0.win 2).blk t).view.emb (ix2 r q))
  refine (linear1_at (iblk0 V c 0 t) (iblk0 V c 1 t) r q).trans ?_
  rw [Cert.ReferenceIdeal.ReadP.val_main_v0_apply]
  refine Finset.sum_congr rfl fun k _ => ?_
  have hx : iblk0 V c 0 t (ix2 r k) = V c (Pipeline.arrRef spec0 0)
      (Cert.ReferenceIdeal.ReadP.lidx_main_v0 (((cfg0.win 2).blk t).view.emb (ix2 r q)) k) := by
    show V c (Pipeline.arrRef spec0 0) (((cfg0.win 0).blk t).view.emb (ix2 r k)) = _
    refine congrArg _ (funext fun a => Fin.ext ?_)
    match a with
    | ⟨0, _⟩ => show win0_0.index t (0 : Fin 2) * 2000 + 1 * r.val = win0_2.index t (0 : Fin 2) * 2000 + 1 * r.val; omega
    | ⟨1, _⟩ => show win0_0.index t (1 : Fin 2) * 64 + 1 * k.val = k.val; omega
  have hw : iblk0 V c 1 t (ix2 k q) = V c (Pipeline.arrRef spec0 1)
      (Cert.ReferenceIdeal.ReadP.ridx_main_v0 (((cfg0.win 2).blk t).view.emb (ix2 r q)) k) := by
    show V c (Pipeline.arrRef spec0 1) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An index of the output array is in point `t`'s block iff each coordinate is in the block's range on its axis. -/
theorem mem_block_lin1 (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v30).slice (win0_2.rect t)).set ↔ _
  rw [View.set_slice_whole, Rect.mem_set_unit]
  exact Iff.rfl

/-- The 25 blocks of 2000 rows cover the 50000 rows: row `i` is in block `i / 2000`. -/
theorem cover_lin1 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := onto_lin1 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block_lin1]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After its last point the region's output array is the full product of the arrays it was entered with. -/
theorem final_lin1 (c : Dev nD) :
    (dat0 V c).arrAt 2 cfg0.N
      = Cert.ReferenceIdeal.ReadP.val_main_v0 (F := Ideal) (V c (Pipeline.arrRef spec0 0)) (V c (Pipeline.arrRef spec0 1)) :=
  (dat0 V c).arrAt_eq_of_cover 2 _ (fun t _ => flushed_lin1 V c t) (cover_lin1)

end Cert.KernelIdeal.Gcn

end
-- ==== Proof.LinearRegion2.lean ====
/-
  The second linear region, as a whole array.  As the first: the region runs the linear body at 25 grid points;
  point `t` loads rows 2000·t … 2000·t + 1999 of the hidden features and the whole weight matrix, and writes the
  same rows of the output back.  Block `t` of the output is therefore block `t` of the full product `features · weights`: row
  2000·t + r of the product depends only on row 2000·t + r of the features.  The 25 blocks tile the 50000 rows, so
  after the last point the output array is the full product — the function the reference computes with one
  `dot_general`.  Stated for any contents `V` the region is entered with.
-/
import proofs.«134719_j22995254903253_1_alg».proof.Proof.Gen.KernelIdeal.Frame
import proofs.«134719_j22995254903253_1_alg».proof.Proof.RefRead
import proofs.«134719_j22995254903253_1_alg».proof.Proof.MatmulBlock
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- A block that starts at the origin. -/
theorem origin_lin2 : (![0, 0] : Fin 2 → Nat) = fun _ => 0 := funext fun a => by fin_cases a <;> rfl

/-- The index maps over the 25 grid points: point `t` takes block `t` of feature rows and of output rows, and the
    one block of the weights. -/
theorem blocks_lin2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of output rows is some point's. -/
theorem onto_lin2 : ∀ p : Fin 25, ∃ t : Fin cfg2.N, win2_2.index t = ![p.val, 0] :=
  (by decide +kernel : ∀ p : Fin 25, ∃ t : Fin grid2.N, win2_2.index t = ![p.val, 0])

/-- What point `t` writes back is block `t` of the full product of the arrays the region is entered with. -/
theorem flushed_lin2 (c : Dev nD) (t : Fin cfg2.N) :
    (dat2 V c).flushed 2 t = ((cfg2.win 2).blk t).view.read (Elt Ideal)
      (Cert.ReferenceIdeal.ReadP.val_main_v0 (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero origin_lin2]
  simp only [View.ld_unit_zero (S := S2000x64) origin_lin2, View.ld_unit_zero (S := S64x64) origin_lin2]
  obtain ⟨e00, e01, e10, e11, e20, e21⟩ := blocks_lin2 t
  funext j
  obtain ⟨r, q, rfl⟩ : ∃ (r : Fin 2000) (q : Fin 64), j = ix2 r q := ⟨j 0, j 1, eq_ix2 j⟩
  show k2_pay1 (iblk2 V c 0 t) (iblk2 V c 1 t) (ix2 r q)
    = Cert.ReferenceIdeal.ReadP.val_main_v0 (F := Ideal) (V c (Pipeline.arrRef spec2 0)) (V c (Pipeline.arrRef spec2 1))
        (((cfg2.win 2).blk t).view.emb (ix2 r q))
  refine (linear2_at (iblk2 V c 0 t) (iblk2 V c 1 t) r q).trans ?_
  rw [Cert.ReferenceIdeal.ReadP.val_main_v0_apply]
  refine Finset.sum_congr rfl fun k _ => ?_
  have hx : iblk2 V c 0 t (ix2 r k) = V c (Pipeline.arrRef spec2 0)
      (Cert.ReferenceIdeal.ReadP.lidx_main_v0 (((cfg2.win 2).blk t).view.emb (ix2 r q)) k) := by
    show V c (Pipeline.arrRef spec2 0) (((cfg2.win 0).blk t).view.emb (ix2 r k)) = _
    refine congrArg _ (funext fun a => Fin.ext ?_)
    match a with
    | ⟨0, _⟩ => show win2_0.index t (0 : Fin 2) * 2000 + 1 * r.val = win2_2.index t (0 : Fin 2) * 2000 + 1 * r.val; omega
    | ⟨1, _⟩ => show win2_0.index t (1 : Fin 2) * 64 + 1 * k.val = k.val; omega
  have hw : iblk2 V c 1 t (ix2 k q) = V c (Pipeline.arrRef spec2 1)
      (Cert.ReferenceIdeal.ReadP.ridx_main_v0 (((cfg2.win 2).blk t).view.emb (ix2 r q)) k) := by
    show V c (Pipeline.arrRef spec2 1) (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the output array is in point `t`'s block iff each coordinate is in the block's range on its axis. -/
theorem mem_block_lin2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v46).slice (win2_2.rect t)).set ↔ _
  rw [View.set_slice_whole, Rect.mem_set_unit]
  exact Iff.rfl

/-- The 25 blocks of 2000 rows cover the 50000 rows: row `i` is in block `i / 2000`. -/
theorem cover_lin2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := onto_lin2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block_lin2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After its last point the region's output array is the full product of the arrays it was entered with. -/
theorem final_lin2 (c : Dev nD) :
    (dat2 V c).arrAt 2 cfg2.N
      = Cert.ReferenceIdeal.ReadP.val_main_v0 (F := Ideal) (V c (Pipeline.arrRef spec2 0)) (V c (Pipeline.arrRef spec2 1)) :=
  (dat2 V c).arrAt_eq_of_cover 2 _ (fun t _ => flushed_lin2 V c t) (cover_lin2)

end Cert.KernelIdeal.Gcn

end
-- ==== Proof.BiasBlock.lean ====
/-
  The two bias bodies at an index.  Each loads a block of 2000 rows of the aggregated features and the bias as a
  one-row matrix, repeats that row over the block's rows and adds; the first of the two then takes the maximum
  with zero (the rectifier).  Read at row `r` and column `q` of the block, the stored value is
  `x (r, q) + b (0, q)`, respectively its maximum with zero.
-/
import proofs.«134719_j22995254903253_1_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.Gcn

open Idealize.ShloMosaic Idealize.ShloMosaic.ValueIdx Cert.KernelIdeal Cert.KernelIdeal.Gen

/-- The bias row repeated over the block's rows and added, at `(r, q)`. -/
theorem bias_at (x : Vec Ideal S2000x64 .f32) (b : Vec Ideal S1x64 .f32) (r : Fin 2000) (q : Fin 64) :
    k3_pay1 (F := Ideal) x b (ix2 r q) = x (ix2 r q) + b (ix2 (0 : Fin 1) q) := by
  unfold k3_pay1
  rw [shapeCast_self, shapeCast_self]
  show x (ix2 r q) + broadcastTo S2000x64 b broadcasts_S1x64_S2000x64 (ix2 r q) = _
  rw [broadcastTo_1b_ab_apply]

/-- The same followed by the rectifier: the maximum with zero. -/
theorem bias_relu_at (x : Vec Ideal S2000x64 .f32) (b : Vec Ideal S1x64 .f32) (r : Fin 2000) (q : Fin 64) :
    k1_pay1 (F := Ideal) x b (ix2 r q)
      = max (x (ix2 r q) + b (ix2 (0 : Fin 1) q)) (Ideal.ofBits .f32 0x00000000#32) := by
  unfold k1_pay1
  rw [shapeCast_self, shapeCast_self]
  show max (x (ix2 r q) + broadcastTo S2000x64 b broadcasts_S1x64_S2000x64 (ix2 r q)) _ = _
  rw [broadcastTo_1b_ab_apply]
  rfl

end Cert.KernelIdeal.Gcn

end
-- ==== Proof.BiasRegion1.lean ====
/-
  The first bias region, as a whole array.  The region runs the bias body at 25 grid points; point `t` loads rows
  2000·t … 2000·t + 1999 of the aggregated features and the one-row bias matrix, adds the bias row to every row,
  takes the maximum with zero, and writes the same rows of the output back.  Entry `(p, q)` of block `t` depends
  only on entry `(2000·t + p, q)` of the features and entry `(0, q)` of the bias, so block `t` of the output is
  block `t` of the array `max (a + b₀, 0)`, `b₀` the bias row repeated over all 50000 rows; the 25 blocks tile the
  rows, so after the last point the output array is that array.  Stated for any contents `V` the region is entered
  with.
-/
import proofs.«134719_j22995254903253_1_alg».proof.Proof.Gen.KernelIdeal.Frame
import proofs.«134719_j22995254903253_1_alg».proof.Proof.RefRead
import proofs.«134719_j22995254903253_1_alg».proof.Proof.BiasBlock
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The features plus the bias row, rectified: entry `(p, q)` is `max (a (p, q) + b (0, q), 0)`. -/
def biasRelu (a : S50000x64.Idx → EReal) (b : S1x64.Idx → EReal) : S50000x64.Idx → EReal :=
  fun i => max (a i + b (Cert.ReferenceIdeal.ReadP.idx_main_v45 i)) (Ideal.ofBits .f32 0x00000000#32)

/-- A block that starts at the origin. -/
theorem origin_bias1 : (![0, 0] : Fin 2 → Nat) = fun _ => 0 := funext fun a => by fin_cases a <;> rfl

/-- The index maps over the 25 grid points: point `t` takes block `t` of feature rows and of output rows, and the
    one block of the bias. -/
theorem blocks_bias1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of output rows is some point's. -/
theorem onto_bias1 : ∀ p : Fin 25, ∃ t : Fin cfg1.N, win1_2.index t = ![p.val, 0] :=
  (by decide +kernel : ∀ p : Fin 25, ∃ t : Fin grid1.N, win1_2.index t = ![p.val, 0])

/-- What point `t` writes back is block `t` of that array of the arrays the region is entered with. -/
theorem flushed_bias1 (c : Dev nD) (t : Fin cfg1.N) :
    (dat1 V c).flushed 2 t = ((cfg1.win 2).blk t).view.read (Elt Ideal)
      (biasRelu (V c (Pipeline.arrRef spec1 0)) (V c (Pipeline.arrRef spec1 1))) := by
  show (cfg1.win 2).cut (grid1.coords t) ((dat1 V c).after 2 t) = _
  rw [after1_2]
  unfold out1_2
  rw [View.canon_unit_zero origin_bias1]
  simp only [View.ld_unit_zero (S := S2000x64) origin_bias1, View.ld_unit_zero (S := S1x64) origin_bias1]
  obtain ⟨e00, e01, e10, e11, e20, e21⟩ := blocks_bias1 t
  funext j
  obtain ⟨r, q, rfl⟩ : ∃ (r : Fin 2000) (q : Fin 64), j = ix2 r q := ⟨j 0, j 1, eq_ix2 j⟩
  show k1_pay1 (iblk1 V c 0 t) (iblk1 V c 1 t) (ix2 r q)
    = biasRelu (V c (Pipeline.arrRef spec1 0)) (V c (Pipeline.arrRef spec1 1)) (((cfg1.win 2).blk t).view.emb (ix2 r q))
  refine (bias_relu_at (iblk1 V c 0 t) (iblk1 V c 1 t) r q).trans ?_
  have hx : iblk1 V c 0 t (ix2 r q) = V c (Pipeline.arrRef spec1 0) (((cfg1.win 2).blk t).view.emb (ix2 r q)) := by
    show V c (Pipeline.arrRef spec1 0) (((cfg1.win 0).blk t).view.emb (ix2 r q)) = _
    refine congrArg _ (funext fun a => Fin.ext ?_)
    match a with
    | ⟨0, _⟩ => show win1_0.index t (0 : Fin 2) * 2000 + 1 * r.val = win1_2.index t (0 : Fin 2) * 2000 + 1 * r.val; omega
    | ⟨1, _⟩ => show win1_0.index t (1 : Fin 2) * 64 + 1 * q.val = win1_2.index t (1 : Fin 2) * 64 + 1 * q.val; omega
  have hb : iblk1 V c 1 t (ix2 (0 : Fin 1) q) = V c (Pipeline.arrRef spec1 1)
      (Cert.ReferenceIdeal.ReadP.idx_main_v45 (((cfg1.win 2).blk t).view.emb (ix2 r q))) := by
    show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [hx, hb]
  rfl

/-- An index of the output array is in point `t`'s block iff each coordinate is in the block's range on its axis. -/
theorem mem_block_bias1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v45).slice (win1_2.rect t)).set ↔ _
  rw [View.set_slice_whole, Rect.mem_set_unit]
  exact Iff.rfl

/-- The 25 blocks of 2000 rows cover the 50000 rows: row `i` is in block `i / 2000`. -/
theorem cover_bias1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := onto_bias1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block_bias1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After its last point the region's output array is that array of the arrays it was entered with. -/
theorem final_bias1 (c : Dev nD) :
    (dat1 V c).arrAt 2 cfg1.N = biasRelu (V c (Pipeline.arrRef spec1 0)) (V c (Pipeline.arrRef spec1 1)) :=
  (dat1 V c).arrAt_eq_of_cover 2 _ (fun t _ => flushed_bias1 V c t) (cover_bias1)

end Cert.KernelIdeal.Gcn

end
-- ==== Proof.BiasRegion2.lean ====
/-
  The second bias region, as a whole array.  As the first without the rectifier: point `t` of 25 loads rows
  2000·t … 2000·t + 1999 of the aggregated features and the one-row bias matrix, adds the bias row to every row and
  writes the same rows back; block `t` of the output is block `t` of the array `a + b₀`, `b₀` the bias row repeated
  over all 50000 rows, and the 25 blocks tile the rows.  Stated for any contents `V` the region is entered with.
-/
import proofs.«134719_j22995254903253_1_alg».proof.Proof.Gen.KernelIdeal.Frame
import proofs.«134719_j22995254903253_1_alg».proof.Proof.RefRead
import proofs.«134719_j22995254903253_1_alg».proof.Proof.BiasBlock
import Idealize.ShloMosaic.Lib.Pipeline.Value

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The features plus the bias row: entry `(p, q)` is `a (p, q) + b (0, q)`. -/
def biasAdd (a : S50000x64.Idx → EReal) (b : S1x64.Idx → EReal) : S50000x64.Idx → EReal :=
  fun i => a i + b (Cert.ReferenceIdeal.ReadP.idx_main_v45 i)

/-- A block that starts at the origin. -/
theorem origin_bias2 : (![0, 0] : Fin 2 → Nat) = fun _ => 0 := funext fun a => by fin_cases a <;> rfl

/-- The index maps over the 25 grid points: point `t` takes block `t` of feature rows and of output rows, and the
    one block of the bias. -/
theorem blocks_bias2 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of output rows is some point's. -/
theorem onto_bias2 : ∀ p : Fin 25, ∃ t : Fin cfg3.N, win3_2.index t = ![p.val, 0] :=
  (by decide +kernel : ∀ p : Fin 25, ∃ t : Fin grid3.N, win3_2.index t = ![p.val, 0])

/-- What point `t` writes back is block `t` of that array of the arrays the region is entered with. -/
theorem flushed_bias2 (c : Dev nD) (t : Fin cfg3.N) :
    (dat3 V c).flushed 2 t = ((cfg3.win 2).blk t).view.read (Elt Ideal)
      (biasAdd (V c (Pipeline.arrRef spec3 0)) (V c (Pipeline.arrRef spec3 1))) := by
  show (cfg3.win 2).cut (grid3.coords t) ((dat3 V c).after 2 t) = _
  rw [after3_2]
  unfold out3_2
  rw [View.canon_unit_zero origin_bias2]
  simp only [View.ld_unit_zero (S := S2000x64) origin_bias2, View.ld_unit_zero (S := S1x64) origin_bias2]
  obtain ⟨e00, e01, e10, e11, e20, e21⟩ := blocks_bias2 t
  funext j
  obtain ⟨r, q, rfl⟩ : ∃ (r : Fin 2000) (q : Fin 64), j = ix2 r q := ⟨j 0, j 1, eq_ix2 j⟩
  show k3_pay1 (iblk3 V c 0 t) (iblk3 V c 1 t) (ix2 r q)
    = biasAdd (V c (Pipeline.arrRef spec3 0)) (V c (Pipeline.arrRef spec3 1)) (((cfg3.win 2).blk t).view.emb (ix2 r q))
  refine (bias_at (iblk3 V c 0 t) (iblk3 V c 1 t) r q).trans ?_
  have hx : iblk3 V c 0 t (ix2 r q) = V c (Pipeline.arrRef spec3 0) (((cfg3.win 2).blk t).view.emb (ix2 r q)) := by
    show V c (Pipeline.arrRef spec3 0) (((cfg3.win 0).blk t).view.emb (ix2 r q)) = _
    refine congrArg _ (funext fun a => Fin.ext ?_)
    match a with
    | ⟨0, _⟩ => show win3_0.index t (0 : Fin 2) * 2000 + 1 * r.val = win3_2.index t (0 : Fin 2) * 2000 + 1 * r.val; omega
    | ⟨1, _⟩ => show win3_0.index t (1 : Fin 2) * 64 + 1 * q.val = win3_2.index t (1 : Fin 2) * 64 + 1 * q.val; omega
  have hb : iblk3 V c 1 t (ix2 (0 : Fin 1) q) = V c (Pipeline.arrRef spec3 1)
      (Cert.ReferenceIdeal.ReadP.idx_main_v45 (((cfg3.win 2).blk t).view.emb (ix2 r q))) := by
    show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hx, hb]
  rfl

/-- An index of the output array is in point `t`'s block iff each coordinate is in the block's range on its axis. -/
theorem mem_block_bias2 (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v61).slice (win3_2.rect t)).set ↔ _
  rw [View.set_slice_whole, Rect.mem_set_unit]
  exact Iff.rfl

/-- The 25 blocks of 2000 rows cover the 50000 rows: row `i` is in block `i / 2000`. -/
theorem cover_bias2 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := onto_bias2 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block_bias2]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After its last point the region's output array is that array of the arrays it was entered with. -/
theorem final_bias2 (c : Dev nD) :
    (dat3 V c).arrAt 2 cfg3.N = biasAdd (V c (Pipeline.arrRef spec3 0)) (V c (Pipeline.arrRef spec3 1)) :=
  (dat3 V c).arrAt_eq_of_cover 2 _ (fun t _ => flushed_bias2 V c t) (cover_bias2)

end Cert.KernelIdeal.Gcn

end
-- ==== Proof.BiasStages.lean ====
/-
  The bias regions' arrays are the reference's stages.  The kernel hands a bias region its bias as a one-row matrix
  made by a shape cast of the length-64 vector; the reference repeats the vector over all 50000 rows by two
  broadcasts and adds.  At entry `(p, q)` both read entry `q` of the bias vector, so the region's array
  `a (p, q) + b (0, q)` is the reference's sum, and its maximum with zero the reference's rectified sum.
-/
import proofs.«134719_j22995254903253_1_alg».proof.Proof.RefRead
import proofs.«134719_j22995254903253_1_alg».proof.Proof.BiasRegion1
import proofs.«134719_j22995254903253_1_alg».proof.Proof.BiasRegion2
import Idealize.ShloMosaic.Lib.ValueLayout

noncomputable section

namespace Cert.KernelIdeal.Gcn

open Idealize.ShloMosaic Idealize.ShloMosaic.ValueIdx
open Cert.KernelIdeal Cert.KernelIdeal.Gen
open Cert.ReferenceIdeal.ReadP

/-- The one-row bias matrix, read where the region reads it for entry `i` of the array, is the bias vector at
    `i`'s column — the entry the reference's two broadcasts read. -/
theorem bias_row_at (x : (⟨S64, .f32⟩ : BufTy).Contents (Elt Ideal)) (i : S50000x64.Idx) :
    shapeCast S1x64 x shapeCasts_S64_S1x64 (idx_main_v45 i) = x (idx_main_v44 (idx_main_v45 i)) := by
  have e : idx_main_v45 i = ix2 (0 : Fin 1) (⟨(i 1).val, (i 1).isLt⟩ : Fin 64) :=
    funext fun a => by match a with | ⟨0, _⟩ => rfl | ⟨1, _⟩ => rfl
  rw [e]
  refine (shapeCast_a_1a_apply x shapeCasts_S64_S1x64 (0 : Fin 1) (⟨(i 1).val, (i 1).isLt⟩ : Fin 64)).trans ?_
  refine congrArg x (funext fun a => ?_)
  match a with
  | ⟨0, _⟩ => rfl

/-- The rectified bias region's array is the reference's rectified sum. -/
theorem biasRelu_stage (a : (⟨S50000x64, .f32⟩ : BufTy).Contents (Elt Ideal)) (x : (⟨S64, .f32⟩ : BufTy).Contents (Elt Ideal)) :
    biasRelu a (shapeCast S1x64 x shapeCasts_S64_S1x64)
      = maximumf (F := Ideal) (s := S50000x64) (φ := .f32)
          (addf (F := Ideal) (s := S50000x64) (φ := .f32) a (val_main_v45 (F := Ideal) x)) (val_main_call1_v0 (F := Ideal)) := by
  funext i
  show max (a i + shapeCast S1x64 x shapeCasts_S64_S1x64 (idx_main_v45 i)) (Ideal.ofBits .f32 0x00000000#32)
    = max (a i + val_main_v45 (F := Ideal) x i) (val_main_call1_v0 (F := Ideal) i)
  rw [bias_row_at, val_main_v45_apply, val_main_v44_apply, val_main_call1_v0_apply]
  rfl

/-- The plain bias region's array is the reference's sum. -/
theorem biasAdd_stage (a : (⟨S50000x64, .f32⟩ : BufTy).Contents (Elt Ideal)) (x : (⟨S64, .f32⟩ : BufTy).Contents (Elt Ideal)) :
    biasAdd a (shapeCast S1x64 x shapeCasts_S64_S1x64)
      = addf (F := Ideal) (s := S50000x64) (φ := .f32) a (val_main_v93 (F := Ideal) x) := by
  funext i
  show a i + shapeCast S1x64 x shapeCasts_S64_S1x64 (idx_main_v45 i) = a i + val_main_v93 (F := Ideal) x i
  rw [bias_row_at, val_main_v93_apply, val_main_v92_apply]

end Cert.KernelIdeal.Gcn

end
-- ==== Proof.HostStretches.lean ====
/-
  The stretches of host operations between the regions, each read at the one buffer a later region or stretch
  takes from it.  The kernel's program and the reference apply the same host operations to the graph: the edge
  list with a self-loop per node, the node degrees by a scatter-add of ones, their inverse square roots where
  positive, the per-edge normalisation as a product of two gathers of those, and per layer the aggregation — gather
  the transformed features along the source indices, scale by the normalisation, scatter-add into the target
  indices.  So each stretch, run from contents that hold the reference's stages at the buffers it reads, leaves
  the reference's next stage at the buffer it writes: operation by operation the two terms are the same, the
  dimension records of the two programs having the same fields.  The reference computes the graph quantities
  once per layer; the second copies are the first.
-/
import proofs.«134719_j22995254903253_1_alg».proof.Proof.Gen.KernelIdeal.Launch
import proofs.«134719_j22995254903253_1_alg».proof.Proof.RefRead
import Idealize.ShloMosaic.Lib.StableHlo.Run

set_option maxRecDepth 16384

noncomputable section

namespace Cert.KernelIdeal.Gcn

open Idealize.ShloMosaic Idealize.ShloMosaic.TcCoe Idealize.SL.Sem Idealize.ShloMosaic.StableHlo
open Cert.KernelIdeal Cert.KernelIdeal.Gen
open Cert.ReferenceIdeal.ReadP

variable (Wv : Valuation τ sig (Elt Ideal))

/-! ## Before the first region: the graph -/

/-- The source indices: the edge list's first row, then one self-loop per node. -/
theorem sources_of (x1 : (⟨S2x1600000, .i32⟩ : BufTy).Contents (Elt Ideal)) (h1 : Wv (Proc.devRef .tc main_arg1) = x1) :
    StableHlo.after (hostOps0 (F := Ideal)) Wv (Proc.devRef .tc main_v5) = val_main_v4 (F := Ideal) x1 := by
  after_results
  rw [h1]; rfl

/-- The target indices: the edge list's second row, then one self-loop per node. -/
theorem targets_of (x1 : (⟨S2x1600000, .i32⟩ : BufTy).Contents (Elt Ideal)) (h1 : Wv (Proc.devRef .tc main_arg1) = x1) :
    StableHlo.after (hostOps0 (F := Ideal)) Wv (Proc.devRef .tc main_v6) = val_main_v7 (F := Ideal) x1 := by
  after_results
  rw [h1]; rfl

/-- Which nodes have positive degree. -/
theorem positive_of (x1 : (⟨S2x1600000, .i32⟩ : BufTy).Contents (Elt Ideal)) (h1 : Wv (Proc.devRef .tc main_arg1) = x1) :
    StableHlo.after (hostOps0 (F := Ideal)) Wv (Proc.devRef .tc main_v12) = val_main_v13 (F := Ideal) x1 := by
  after_results
  rw [h1]; rfl

/-- The inverse square roots of the degrees. -/
theorem rsqrt_of (x1 : (⟨S2x1600000, .i32⟩ : BufTy).Contents (Elt Ideal)) (h1 : Wv (Proc.devRef .tc main_arg1) = x1) :
    StableHlo.after (hostOps0 (F := Ideal)) Wv (Proc.devRef .tc main_v13) = val_main_v14 (F := Ideal) x1 := by
  after_results
  rw [h1]; rfl

/-- The zero that stands where the degree is not positive. -/
theorem zero_of :
    StableHlo.after (hostOps0 (F := Ideal)) Wv (Proc.devRef .tc main_cst_2) = val_main_cst_2 (F := Ideal) := by
  after_results
  rfl

/-- The inverse square root of the degree where it is positive, zero elsewhere. -/
theorem dinv_of (x1 : (⟨S2x1600000, .i32⟩ : BufTy).Contents (Elt Ideal))
    (h12 : Wv (Proc.devRef .tc main_v12) = val_main_v13 (F := Ideal) x1)
    (h13 : Wv (Proc.devRef .tc main_v13) = val_main_v14 (F := Ideal) x1)
    (hc : Wv (Proc.devRef .tc main_cst_2) = val_main_cst_2 (F := Ideal)) :
    StableHlo.after (hostOps0_1 (F := Ideal)) Wv (Proc.devRef .tc main_v14) = val_main_v15 (F := Ideal) x1 := by
  after_results_simp
  simp only [TRef.toBuf, TRef.ofBuf, cast_eq]
  rw [h12, h13, hc]; rfl

set_option maxHeartbeats 4000000 in
/-- The normalisation of every edge: the product of the two endpoints' inverse square roots. -/
theorem norm_of (x1 : (⟨S2x1600000, .i32⟩ : BufTy).Contents (Elt Ideal))
    (h5 : Wv (Proc.devRef .tc main_v5) = val_main_v4 (F := Ideal) x1)
    (h6 : Wv (Proc.devRef .tc main_v6) = val_main_v7 (F := Ideal) x1)
    (h14 : Wv (Proc.devRef .tc main_v14) = val_main_v15 (F := Ideal) x1) :
    StableHlo.after (hostOps0_2 (F := Ideal)) Wv (Proc.devRef .tc main_v29) = val_main_v30 (F := Ideal) x1 := by
  after_results_simp
  rw [h5, h6, h14]; rfl

/-! ## Between the regions: a layer's aggregation, and its bias as a one-row matrix -/

set_option maxHeartbeats 4000000 in
/-- The first layer's aggregation of the transformed features `x0 · x2`: gathered along the sources, scaled by the
    normalisation, scatter-added into the targets. -/
theorem aggregate1_of (x0 : (⟨S50000x64, .f32⟩ : BufTy).Contents (Elt Ideal)) (x1 : (⟨S2x1600000, .i32⟩ : BufTy).Contents (Elt Ideal)) (x2 : (⟨S64x64, .f32⟩ : BufTy).Contents (Elt Ideal))
    (h29 : Wv (Proc.devRef .tc main_v29) = val_main_v30 (F := Ideal) x1)
    (h5 : Wv (Proc.devRef .tc main_v5) = val_main_v4 (F := Ideal) x1)
    (h6 : Wv (Proc.devRef .tc main_v6) = val_main_v7 (F := Ideal) x1)
    (h30 : Wv (Proc.devRef .tc main_v30) = val_main_v0 (F := Ideal) x0 x2) :
    StableHlo.after (hostOps1 (F := Ideal)) Wv (Proc.devRef .tc main_v43) = val_main_v43 (F := Ideal) x0 x1 x2 := by
  after_results_simp
  rw [h29, h5, h6, h30]; rfl

/-- The first bias as a one-row matrix. -/
theorem bias_row1_of (x3 : (⟨S64, .f32⟩ : BufTy).Contents (Elt Ideal)) (h3 : Wv (Proc.devRef .tc main_arg3) = x3) :
    StableHlo.after (hostOps1 (F := Ideal)) Wv (Proc.devRef .tc main_v44) = shapeCast S1x64 x3 shapeCasts_S64_S1x64 := by
  after_results_simp
  rw [h3]; rfl

set_option maxHeartbeats 4000000 in
/-- The second layer's aggregation of its transformed hidden features, over the reference's second computation of
    the graph's indices and normalisation. -/
theorem aggregate2_of (x0 : (⟨S50000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h29 : Wv (Proc.devRef .tc main_v29) = val_main_v78 (F := Ideal) x1)
    (h5 : Wv (Proc.devRef .tc main_v5) = val_main_v52 (F := Ideal) x1)
    (h6 : Wv (Proc.devRef .tc main_v6) = val_main_v55 (F := Ideal) x1)
    (h46 : Wv (Proc.devRef .tc main_v46) = val_main_v48 (F := Ideal) x0 x1 x2 x3 x4) :
    StableHlo.after (hostOps3 (F := Ideal)) Wv (Proc.devRef .tc main_v59) = val_main_v91 (F := Ideal) x0 x1 x2 x3 x4 := by
  after_results_simp
  rw [h29, h5, h6, h46]; rfl

/-- The second bias as a one-row matrix. -/
theorem bias_row2_of (x5 : (⟨S64, .f32⟩ : BufTy).Contents (Elt Ideal)) (h5 : Wv (Proc.devRef .tc main_arg5) = x5) :
    StableHlo.after (hostOps3 (F := Ideal)) Wv (Proc.devRef .tc main_v60) = shapeCast S1x64 x5 shapeCasts_S64_S1x64 := by
  after_results_simp
  rw [h5]; rfl

/-! ## The reference's second computation of the graph is its first -/

theorem sources_again (x1 : (⟨S2x1600000, .i32⟩ : BufTy).Contents (Elt Ideal)) : val_main_v52 (F := Ideal) x1 = val_main_v4 (F := Ideal) x1 := rfl
theorem targets_again (x1 : (⟨S2x1600000, .i32⟩ : BufTy).Contents (Elt Ideal)) : val_main_v55 (F := Ideal) x1 = val_main_v7 (F := Ideal) x1 := rfl
theorem norm_again (x1 : (⟨S2x1600000, .i32⟩ : BufTy).Contents (Elt Ideal)) : val_main_v78 (F := Ideal) x1 = val_main_v30 (F := Ideal) x1 := rfl

end Cert.KernelIdeal.Gcn

end
-- ==== Proof.HostWrites.lean ====
/-
  What each stretch of host operations writes.  Every host operation writes exactly one buffer, its result; a
  stretch therefore leaves every buffer outside the list of its operations' results as it found it.  That is how
  the graph's indices and normalisation, computed before the first region, and the arguments, written by nothing,
  reach the later stretches and regions unchanged.
-/
import proofs.«134719_j22995254903253_1_alg».proof.Proof.Gen.KernelIdeal.Launch
import Idealize.ShloMosaic.Lib.StableHlo.Run

set_option maxRecDepth 16384

noncomputable section

namespace Cert.KernelIdeal.Gcn

open Idealize.ShloMosaic Idealize.ShloMosaic.TcCoe Idealize.SL.Sem Idealize.ShloMosaic.StableHlo
open Cert.KernelIdeal Cert.KernelIdeal.Gen

variable {F : FTy → Type} [FloatOps F] (Wv : Valuation τ sig (Elt F))

/-- The results of the stretch that computes the graph's indices, degrees and their inverse square roots. -/
abbrev writtenGraph : List (Ref sig .tc) := [main_v0, main_v1, main_v2, main_v3, main_v4, main_v5, main_v6, main_cst, main_v7, main_cst_0, main_v8, main_v9, main_v10, main_cst_1, main_v11, main_v12, main_v13, main_cst_2]

theorem writtenGraph_all : (hostOps0 : List (HloOp τ sig (Elt F))).Forall fun op =>
    op.writes ⊆ (writtenGraph.map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write keeps its contents. -/
theorem keptGraph (r : Ref sig .tc) (h : r ∉ writtenGraph) :
    StableHlo.after (hostOps0 : List (HloOp τ sig (Elt F))) Wv (Proc.devRef .tc r) = Wv (Proc.devRef .tc r) :=
  StableHlo.after_of_writes_sub _ _ writtenGraph_all h

/-- The results of the stretch that computes the first layer's aggregation and its bias row. -/
abbrev writtenAgg1 : List (Ref sig .tc) := [main_v31, main_c_6, main_v32, main_v33, main_c_7, main_v34, main_v35, main_v36, main_v37, main_v38, main_v39, main_v40, main_cst_8, main_v41, main_v42, main_v43, main_v44]

theorem writtenAgg1_all : (hostOps1 : List (HloOp τ sig (Elt F))).Forall fun op =>
    op.writes ⊆ (writtenAgg1.map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write keeps its contents. -/
theorem keptAgg1 (r : Ref sig .tc) (h : r ∉ writtenAgg1) :
    StableHlo.after (hostOps1 : List (HloOp τ sig (Elt F))) Wv (Proc.devRef .tc r) = Wv (Proc.devRef .tc r) :=
  StableHlo.after_of_writes_sub _ _ writtenAgg1_all h

/-- The results of the stretch that computes the second layer's aggregation and its bias row. -/
abbrev writtenAgg2 : List (Ref sig .tc) := [main_v47, main_c_9, main_v48, main_v49, main_c_10, main_v50, main_v51, main_v52, main_v53, main_v54, main_v55, main_v56, main_cst_11, main_v57, main_v58, main_v59, main_v60]

theorem writtenAgg2_all : (hostOps3 : List (HloOp τ sig (Elt F))).Forall fun op =>
    op.writes ⊆ (writtenAgg2.map (Proc.devRef (τ := τ) .tc)).toFinset := by
  simp only [hostOps3, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write keeps its contents. -/
theorem keptAgg2 (r : Ref sig .tc) (h : r ∉ writtenAgg2) :
    StableHlo.after (hostOps3 : List (HloOp τ sig (Elt F))) Wv (Proc.devRef .tc r) = Wv (Proc.devRef .tc r) :=
  StableHlo.after_of_writes_sub _ _ writtenAgg2_all h

/-- The results of the stretch that computes the choice of zero where the degree is not positive. -/
abbrev writtenWhere : List (Ref sig .tc) := [main_call0_v0, main_call0_v1, main_v14]

theorem writtenWhere_all : (hostOps0_1 : List (HloOp τ sig (Elt F))).Forall fun op =>
    op.writes ⊆ (writtenWhere.map (Proc.devRef (τ := τ) .tc)).toFinset := by
  simp only [hostOps0_1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write keeps its contents. -/
theorem keptWhere (r : Ref sig .tc) (h : r ∉ writtenWhere) :
    StableHlo.after (hostOps0_1 : List (HloOp τ sig (Elt F))) Wv (Proc.devRef .tc r) = Wv (Proc.devRef .tc r) :=
  StableHlo.after_of_writes_sub _ _ writtenWhere_all h

/-- The results of the stretch that computes the per-edge normalisation. -/
abbrev writtenNorm : List (Ref sig .tc) := [main_c, main_v15, main_v16, main_c_3, main_v17, main_v18, main_v19, main_v20, main_v21, main_c_4, main_v22, main_v23, main_c_5, main_v24, main_v25, main_v26, main_v27, main_v28, main_v29]

theorem writtenNorm_all : (hostOps0_2 : List (HloOp τ sig (Elt F))).Forall fun op =>
    op.writes ⊆ (writtenNorm.map (Proc.devRef (τ := τ) .tc)).toFinset := by
  simp only [hostOps0_2, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write keeps its contents. -/
theorem keptNorm (r : Ref sig .tc) (h : r ∉ writtenNorm) :
    StableHlo.after (hostOps0_2 : List (HloOp τ sig (Elt F))) Wv (Proc.devRef .tc r) = Wv (Proc.devRef .tc r) :=
  StableHlo.after_of_writes_sub _ _ writtenNorm_all h

end Cert.KernelIdeal.Gcn

end
-- ==== Proof.KernelValue.lean ====
/-
  The kernel's result is the reference's function of the arguments.  The result buffer is followed back through the
  program, boundary by boundary, every intermediate named by the reference's stage it equals:
    before the first region the graph's source and target indices and the per-edge normalisation;
    the first linear region leaves `x · W1`;
    the stretch after it aggregates that over the graph and reshapes the first bias;
    the first bias region leaves the rectified sum, the hidden features;
    the second linear region leaves `hidden · W2`;
    the stretch after it aggregates that and reshapes the second bias;
    the second bias region leaves the sum — the result.
  Between these, a region changes only its own output array and a stretch only its operations' results, so the graph
  quantities and the arguments are found at every later boundary as they were left.
-/
import proofs.«134719_j22995254903253_1_alg».proof.Proof.Gen.KernelIdeal.Frame
import proofs.«134719_j22995254903253_1_alg».proof.Proof.RefRead
import proofs.«134719_j22995254903253_1_alg».proof.Proof.LinearRegion1
import proofs.«134719_j22995254903253_1_alg».proof.Proof.LinearRegion2
import proofs.«134719_j22995254903253_1_alg».proof.Proof.BiasRegion1
import proofs.«134719_j22995254903253_1_alg».proof.Proof.BiasRegion2
import proofs.«134719_j22995254903253_1_alg».proof.Proof.BiasStages
import proofs.«134719_j22995254903253_1_alg».proof.Proof.HostStretches
import proofs.«134719_j22995254903253_1_alg».proof.Proof.HostWrites

set_option maxRecDepth 16384

noncomputable section

namespace Cert.KernelIdeal.Gcn

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.ReadP

variable (m : (ℓ : Loc nD τ sig) → Buf (Elt Ideal) ℓ) (ρ : Dev nD → PrngReg) (c : Dev nD)

/-! ## What is left alone -/

/-- A buffer none of the three stretches before the first region writes holds its launch contents when that
    region is entered. -/
theorem entry_kept (r : Ref sig .tc) (h0 : r ∉ writtenGraph) (h1 : r ∉ writtenWhere) (h2 : r ∉ writtenNorm) :
    W3 m ρ c (Proc.devRef .tc r) = W0 m ρ c (Proc.devRef .tc r) :=
  (keptNorm (W2 m ρ c) r h2).trans ((keptWhere (W1 m ρ c) r h1).trans (keptGraph (W0 m ρ c) r h0))

/-- A buffer that neither the first linear region nor the stretch after it writes is, at the first bias region's
    entry, as at the first linear region's. -/
theorem mid_kept (r : Ref sig .tc) (h4 : ∀ w, Pipeline.arrRef spec0 w ≠ r) (h5 : r ∉ writtenAgg1) :
    W5 m ρ c (Proc.devRef .tc r) = W3 m ρ c (Proc.devRef .tc r) :=
  (keptAgg1 (W4 m ρ c) r h5).trans (W4_of_ne m ρ c r h4)

/-- And one that the first bias region and the second linear region do not write either is the same at the last
    stretch's entry. -/
theorem late_kept (r : Ref sig .tc) (h4 : ∀ w, Pipeline.arrRef spec0 w ≠ r) (h5 : r ∉ writtenAgg1)
    (h6 : ∀ w, Pipeline.arrRef spec1 w ≠ r) (h7 : ∀ w, Pipeline.arrRef spec2 w ≠ r) :
    W7 m ρ c (Proc.devRef .tc r) = W3 m ρ c (Proc.devRef .tc r) :=
  (W7_of_ne m ρ c r h7).trans ((W6_of_ne m ρ c r h6).trans (mid_kept m ρ c r h4 h5))

/-! ## The graph, before the first region -/

theorem sources_entry : W3 m ρ c (Proc.devRef .tc main_v5) = val_main_v4 (F := Ideal) (m ((c : Thread nD τ).loc main_arg1)) :=
  (keptNorm (W2 m ρ c) main_v5 (by decide)).trans ((keptWhere (W1 m ρ c) main_v5 (by decide)).trans
    (sources_of (W0 m ρ c) _ rfl))

theorem targets_entry : W3 m ρ c (Proc.devRef .tc main_v6) = val_main_v7 (F := Ideal) (m ((c : Thread nD τ).loc main_arg1)) :=
  (keptNorm (W2 m ρ c) main_v6 (by decide)).trans ((keptWhere (W1 m ρ c) main_v6 (by decide)).trans
    (targets_of (W0 m ρ c) _ rfl))

theorem dinv_entry : W2 m ρ c (Proc.devRef .tc main_v14) = val_main_v15 (F := Ideal) (m ((c : Thread nD τ).loc main_arg1)) :=
  dinv_of (W1 m ρ c) _ (positive_of (W0 m ρ c) _ rfl) (rsqrt_of (W0 m ρ c) _ rfl) (zero_of (W0 m ρ c))

theorem norm_entry : W3 m ρ c (Proc.devRef .tc main_v29) = val_main_v30 (F := Ideal) (m ((c : Thread nD τ).loc main_arg1)) :=
  norm_of (W2 m ρ c) _
    ((keptWhere (W1 m ρ c) main_v5 (by decide)).trans (sources_of (W0 m ρ c) _ rfl))
    ((keptWhere (W1 m ρ c) main_v6 (by decide)).trans (targets_of (W0 m ρ c) _ rfl))
    (dinv_entry m ρ c)

/-! ## The first layer -/

/-- The first linear region leaves `x · W1`. -/
theorem linear1_value : W4 m ρ c (Proc.devRef .tc main_v30) = val_main_v0 (F := Ideal) (m ((c : Thread nD τ).loc main_arg0)) (m ((c : Thread nD τ).loc main_arg2)) := by
  refine (W4_arr m ρ c 2).trans ((final_lin1 (V3 m ρ) c).trans ?_)
  show val_main_v0 (F := Ideal) (W3 m ρ c (Proc.devRef .tc main_arg0)) (W3 m ρ c (Proc.devRef .tc main_arg2)) = _
  rw [entry_kept m ρ c main_arg0 (by decide) (by decide) (by decide),
    entry_kept m ρ c main_arg2 (by decide) (by decide) (by decide)]

/-- Its aggregation over the graph. -/
theorem aggregate1_value :
    W5 m ρ c (Proc.devRef .tc main_v43) = val_main_v43 (F := Ideal) (m ((c : Thread nD τ).loc main_arg0)) (m ((c : Thread nD τ).loc main_arg1)) (m ((c : Thread nD τ).loc main_arg2)) :=
  aggregate1_of (W4 m ρ c) _ _ _
    ((W4_of_ne m ρ c main_v29 (by decide)).trans (norm_entry m ρ c))
    ((W4_of_ne m ρ c main_v5 (by decide)).trans (sources_entry m ρ c))
    ((W4_of_ne m ρ c main_v6 (by decide)).trans (targets_entry m ρ c))
    (linear1_value m ρ c)

/-- The first bias as a one-row matrix. -/
theorem bias_row1_value :
    W5 m ρ c (Proc.devRef .tc main_v44) = shapeCast S1x64 (m ((c : Thread nD τ).loc main_arg3)) shapeCasts_S64_S1x64 :=
  bias_row1_of (W4 m ρ c) _ ((W4_of_ne m ρ c main_arg3 (by decide)).trans
    ((entry_kept m ρ c main_arg3 (by decide) (by decide) (by decide)).trans rfl))

/-- The first bias region leaves the hidden features: the rectified sum. -/
theorem hidden_value :
    W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((final_bias1 (V5 m ρ) c).trans ?_)
  show biasRelu (W5 m ρ c (Proc.devRef .tc main_v43)) (W5 m ρ c (Proc.devRef .tc main_v44)) = _
  rw [aggregate1_value m ρ c, bias_row1_value m ρ c, biasRelu_stage]
  rfl

/-! ## The second layer -/

/-- The second linear region leaves `hidden · W2`. -/
theorem linear2_value :
    W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((final_lin2 (V6 m ρ) c).trans ?_)
  show val_main_v0 (F := Ideal) (W6 m ρ c (Proc.devRef .tc main_v45)) (W6 m ρ c (Proc.devRef .tc main_arg4)) = _
  rw [hidden_value m ρ c, W6_of_ne m ρ c main_arg4 (by decide), mid_kept m ρ c main_arg4 (by decide) (by decide),
    entry_kept m ρ c main_arg4 (by decide) (by decide) (by decide)]
  rfl

/-- Its aggregation over the graph. -/
theorem aggregate2_value :
    W8 m ρ c (Proc.devRef .tc main_v59) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregate2_of (W7 m ρ c) _ _ _ _ _
    ((late_kept m ρ c main_v29 (by decide) (by decide) (by decide) (by decide)).trans
      ((norm_entry m ρ c).trans (norm_again _).symm))
    ((late_kept m ρ c main_v5 (by decide) (by decide) (by decide) (by decide)).trans
      ((sources_entry m ρ c).trans (sources_again _).symm))
    ((late_kept m ρ c main_v6 (by decide) (by decide) (by decide) (by decide)).trans
      ((targets_entry m ρ c).trans (targets_again _).symm))
    (linear2_value m ρ c)

/-- The second bias as a one-row matrix. -/
theorem bias_row2_value :
    W8 m ρ c (Proc.devRef .tc main_v60) = shapeCast S1x64 (m ((c : Thread nD τ).loc main_arg5)) shapeCasts_S64_S1x64 :=
  bias_row2_of (W7 m ρ c) _ ((late_kept m ρ c main_arg5 (by decide) (by decide) (by decide) (by decide)).trans
    ((entry_kept m ρ c main_arg5 (by decide) (by decide) (by decide)).trans rfl))

/-- THE RESULT: the second bias region leaves the reference's function of the six arguments. -/
theorem result_value :
    W9 m ρ c (Proc.devRef .tc main_v61)
      = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final_bias2 (V8 m ρ) c).trans ?_)
  show biasAdd (W8 m ρ c (Proc.devRef .tc main_v59)) (W8 m ρ c (Proc.devRef .tc main_v60)) = _
  rw [aggregate2_value m ρ c, bias_row2_value m ρ c, biasAdd_stage]
  rfl

end Cert.KernelIdeal.Gcn

end
-- ==== Proof.lean ====
/-
  A two-layer graph convolution, `out = Â · relu(Â · (x · W1) + b1) · W2 + b2` with `Â` the adjacency with self-loops
  normalised symmetrically by the node degrees, computed two ways over 50000 nodes, 1600000 edges and 64 features.
  The kernel's program runs the two products `· W` and the two bias additions (the first with the rectifier) as
  pipelined regions over 25 blocks of 2000 rows, and everything about the graph — the edge list with self-loops, the
  degrees, their inverse square roots, the per-edge normalisation, and per layer the gather, scale and scatter-add —
  as host operations between them; the reference does all of it on the host and computes the graph quantities once
  per layer.

  On the extended reals the two results are the same function of the arguments, and no law beyond reading each
  program is needed to see it.  A region's blocks are restrictions of one whole-array function: a block of rows of
  a product depends only on those rows of the left factor, and an entry of a bias sum on that entry and the bias at
  its column; rounding to bf16 is the identity; the matrix unit's product into a zero accumulator is the plain sum.
  The host operations are operation for operation the reference's, and the reference's second computation of the
  graph quantities is its first.  So the finiteness of the inputs is never used.

  The three frames: each program runs to the end without a fault and leaves its arguments as launched (for the
  reference, its run with the result dropped).  The idealised kernel is the kernel's own text read on the extended
  reals: the idealisation rewrote nothing.
-/
import proofs.«134719_j22995254903253_1_alg».proof.Defs
import proofs.«134719_j22995254903253_1_alg».proof.Proof.Gen.Kernel
import proofs.«134719_j22995254903253_1_alg».proof.Proof.Gen.Kernel.Frame
import proofs.«134719_j22995254903253_1_alg».proof.Proof.Gen.KernelIdeal
import proofs.«134719_j22995254903253_1_alg».proof.Proof.Gen.KernelIdeal.Frame
import proofs.«134719_j22995254903253_1_alg».proof.Proof.Gen.ReferenceIdeal
import proofs.«134719_j22995254903253_1_alg».proof.Proof.Gen.Pre_finite_inputs
import proofs.«134719_j22995254903253_1_alg».proof.Proof.RefRun
import proofs.«134719_j22995254903253_1_alg».proof.Proof.RefRead
import proofs.«134719_j22995254903253_1_alg».proof.Proof.KernelRun
import proofs.«134719_j22995254903253_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories that agree on the arguments both programs end with the same result: the reference's function of
    the six arguments, which the kernel's result buffer holds after its last region and the reference's run states. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Gcn.result_value m ρ c), (h c).2⟩)
      (Cert.KernelIdeal.Gcn.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v94_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
